-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S8192x4096 .f32) (main_arg1 : FVec F S4096x4096 .f32) (main_arg2 : FVec F S4096 .f32) (main_arg3 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S4096x4096, .bf16⟩
  | .hbm, ⟨6, _⟩ => ⟨S8192x4096, .bf16⟩
  | .hbm, ⟨7, _⟩ => ⟨S1x4096, .f32⟩
  | .hbm, ⟨8, _⟩ => ⟨S8192x4096, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v2) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibSumBlocks.lean ====
/-
  A finite sum cut into consecutive blocks.

  An index below `m * n` is `a * n + b` for exactly one block number `a < m` and one offset `b < n`, so a sum over
  `Fin (m * n)` in any commutative additive monoid is the sum, over the blocks, of each block's sum.  No order or
  finiteness of the summands is used: only that addition is associative and commutative, which holds on the extended
  reals too.
-/
import Mathlib.Algebra.BigOperators.Fin
import Mathlib.Logic.Equiv.Fin.Basic

open scoped BigOperators

namespace SumBlocks

/-- Offset `b` of block `a` lies below `m * n`. -/
theorem lt_mul {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- The index `a * n + b` of a range of `N = m * n` indices. -/
def idx {m n N : ℕ} (hN : m * n = N) (a : Fin m) (b : Fin n) : Fin N := ⟨a.val * n + b.val, hN ▸ lt_mul a b⟩

@[simp] theorem idx_val {m n N : ℕ} (hN : m * n = N) (a : Fin m) (b : Fin n) : (idx hN a b).val = a.val * n + b.val := rfl

/-- A sum over `N = m * n` indices is the sum over the `m` blocks of the sum over each block's `n` offsets. -/
theorem sum_eq {β : Type*} [AddCommMonoid β] {m n N : ℕ} (hN : m * n = N) (f : Fin N → β) :
    ∑ k : Fin N, f k = ∑ a : Fin m, ∑ b : Fin n, f (idx hN a b) := by
  subst hN
  rw [← Equiv.sum_comp finProdFinEquiv f, Fintype.sum_prod_type]
  refine Finset.sum_congr rfl fun a _ => Finset.sum_congr rfl fun b _ => congrArg f (Fin.ext ?_)
  show b.val + n * a.val = a.val * n + b.val
  rw [Nat.mul_comm, Nat.add_comm]

end SumBlocks
-- ==== Proof.LibBlockedSum.lean ====
/-
  A finite sum accumulated block by block.

  A sum over `N = m · n` indices is taken in `m` consecutive blocks of `n`.  `blockSum hN f s` is the sum of block `s`,
  as a function of every natural number `s` (zero past the last block, which is never read), so that block sums can be
  indexed by a range of naturals — the form in which a run of grid points that accumulate into one resident tile hands
  them back.  The block sums over the range `0 … m - 1` add up to the whole sum, and so do the first `m - 1` of them
  added into zero followed by the last: the shape of an accumulator that is reset to zero, stepped through all blocks but
  the last, and closed by a final step that may add something more afterwards.  Only associativity and commutativity of
  addition are used, so the laws hold in any commutative additive monoid — on the extended reals whatever the summands.
-/
import Mathlib.Algebra.BigOperators.Fin
import Mathlib.Algebra.BigOperators.Intervals
import proofs.«139576_j60687887893041_2_alg».proof.Proof.LibSumBlocks

open scoped BigOperators

namespace Cert.Lib.BlockedSum

variable {β : Type*} [AddCommMonoid β] {m n N : ℕ}

/-- The sum of block `s` of a family over `N = m · n` indices: offsets `0 … n - 1` from `s · n`; zero for `s ≥ m`. -/
def blockSum (hN : m * n = N) (f : Fin N → β) (s : ℕ) : β :=
  if h : s < m then ∑ b : Fin n, f (SumBlocks.idx hN ⟨s, h⟩ b) else 0

/-- Inside the range, a block sum is the sum over the block's offsets. -/
theorem blockSum_of_lt (hN : m * n = N) (f : Fin N → β) (s : ℕ) (hs : s < m) :
    blockSum hN f s = ∑ b : Fin n, f (SumBlocks.idx hN ⟨s, hs⟩ b) := dif_pos hs

/-- The block sums over `0 … m - 1` add up to the whole sum. -/
theorem sum_range_blockSum (hN : m * n = N) (f : Fin N → β) :
    ∑ s ∈ Finset.range m, blockSum hN f s = ∑ k : Fin N, f k := by
  rw [Finset.sum_range, SumBlocks.sum_eq hN f]
  exact Finset.sum_congr rfl fun a _ => blockSum_of_lt hN f a.val a.isLt

/-- All blocks but the last added into zero, then the last block, are the whole sum. -/
theorem accumulated {e : ℕ} (hN : (e + 1) * n = N) (f : Fin N → β) :
    (0 + ∑ s ∈ Finset.range e, blockSum hN f s) + blockSum hN f e = ∑ k : Fin N, f k := by
  rw [zero_add, ← Finset.sum_range_succ, sum_range_blockSum hN f]

end Cert.Lib.BlockedSum
-- ==== Proof.MaskedLinear.lean ====
/-
  A masked linear layer as one function of its arrays, and its contraction taken in consecutive blocks.

  For an input `x : [8192, 4096]`, a weight `w` and a mask, both `[4096, 4096]`, and a bias `b : [4096]`, entry
  `(r, c)` of the layer is  `Σ_k x(r, k) · (w(c, k) · mask(c, k)) + b(c)`  on the extended reals: row `r` of the input
  against row `c` of the masked weight, plus the bias of column `c`.

  The contraction index runs over 4096 = 8 · 512 values.  Taking it in eight consecutive blocks of 512, adding the
  first seven block sums into zero and then the eighth, gives the same entry.  Only associativity and commutativity of
  addition are used, which hold on the extended reals whatever the summands: no entry is asked to be finite.
-/
import Idealize.ShloMosaic.PureOps.Ideal.Laws
import Idealize.ShloMosaic.Lib.ValueIdx
import proofs.«139576_j60687887893041_2_alg».proof.Proof.LibSumBlocks
import proofs.«139576_j60687887893041_2_alg».proof.Proof.LibBlockedSum

noncomputable section

namespace Cert.MaskedLinear

open Idealize.ShloMosaic Idealize.ShloMosaic.ValueIdx
open scoped BigOperators

/-- Eight blocks of 512 make the 4096 contraction indices. -/
theorem blocks_eq : 8 * 512 = 4096 := by norm_num

/-- The contraction index at offset `kk` of block `s`: `512 s + kk`. -/
abbrev kIdx (s : Fin 8) (kk : Fin 512) : Fin 4096 := SumBlocks.idx blocks_eq s kk

/-- Term `k` of the contraction of input row `r` against row `c` of the masked weight. -/
def term (X : FVec Ideal ⟨2, ![8192, 4096]⟩ .f32) (W Mk : FVec Ideal ⟨2, ![4096, 4096]⟩ .f32)
    (r : Fin 8192) (c : Fin 4096) (k : Fin 4096) : EReal :=
  X (ix2 r k) * (W (ix2 c k) * Mk (ix2 c k))

/-- The layer: at `(r, c)`, the contraction of input row `r` against masked-weight row `c`, plus the bias at `c`. -/
def out (X : FVec Ideal ⟨2, ![8192, 4096]⟩ .f32) (W : FVec Ideal ⟨2, ![4096, 4096]⟩ .f32)
    (B : FVec Ideal ⟨1, ![4096]⟩ .f32) (Mk : FVec Ideal ⟨2, ![4096, 4096]⟩ .f32) :
    FVec Ideal ⟨2, ![8192, 4096]⟩ .f32 := fun i =>
  (∑ k : Fin 4096, term X W Mk (i 0) (i 1) k) + B (ix1 (i 1))

/-- The sum of block `s` of a family over the contraction indices (zero past the eighth block, which is never read). -/
def blockSum {β : Type*} [AddCommMonoid β] (f : Fin 4096 → β) (s : ℕ) : β :=
  Cert.Lib.BlockedSum.blockSum blocks_eq f s

/-- One of the eight block sums is the sum over the block's 512 offsets. -/
theorem blockSum_of_lt {β : Type*} [AddCommMonoid β] (f : Fin 4096 → β) (s : ℕ) (hs : s < 8) :
    blockSum f s = ∑ kk : Fin 512, f (kIdx ⟨s, hs⟩ kk) :=
  Cert.Lib.BlockedSum.blockSum_of_lt blocks_eq f s hs

/-- The first seven block sums added into zero, then the eighth, are the whole sum. -/
theorem blocked {β : Type*} [AddCommMonoid β] (f : Fin 4096 → β) :
    (0 + ∑ s ∈ Finset.range 7, blockSum f s) + blockSum f 7 = ∑ k : Fin 4096, f k :=
  Cert.Lib.BlockedSum.accumulated (e := 7) blocks_eq f

end Cert.MaskedLinear

end
-- ==== Proof.Reference.lean ====
/-
  The reference at an index.

  The reference multiplies the weight by the mask entry by entry, transposes the product, contracts the input's
  columns against the transposed product's rows, and adds the bias laid along a unit row and repeated down the rows.
  Read at `(r, c)`: the transpose swaps the two coordinates back, so the contraction pairs `x(r, k)` with
  `w(c, k) · mask(c, k)`, and the two broadcasts read the bias at `c`.  That is the layer's entry.
-/
import proofs.«139576_j60687887893041_2_alg».proof.Proof.Gen.ReferenceIdeal.Read
import proofs.«139576_j60687887893041_2_alg».proof.Proof.MaskedLinear

noncomputable section

namespace Cert.ReferenceIdeal.AtIndex

open Cert.ReferenceIdeal Cert.ReferenceIdeal.Gen Cert.ReferenceIdeal.Read Idealize.ShloMosaic Idealize.ShloMosaic.ValueIdx
open scoped BigOperators

/-- The reference's result, as a function of its four arrays, is the layer. -/
theorem result_eq (x0 : FVec Ideal S8192x4096 .f32) (x1 : FVec Ideal S4096x4096 .f32) (x2 : FVec Ideal S4096 .f32)
    (x3 : FVec Ideal S4096x4096 .f32) :
    val_main_v5 (F := Ideal) x0 x1 x2 x3 = Cert.MaskedLinear.out x0 x1 x2 x3 := by
  funext i
  have e1 : ∀ k : Fin 4096, lidx_main_v2 i k = ix2 (i 0) k := fun k => funext fun a => Fin.ext (by
    match a with
    | ⟨0, _⟩ => rfl
    | ⟨1, _⟩ => rfl)
  have e2 : ∀ k : Fin 4096, idx_main_v1 (ridx_main_v2 i k) = ix2 (i 1) k := fun k => funext fun a => Fin.ext (by
    match a with
    | ⟨0, _⟩ => rfl
    | ⟨1, _⟩ => rfl)
  have e3 : idx_main_v3 (idx_main_v4 i) = ix1 (i 1) := funext fun a => Fin.ext (by
    match a with
    | ⟨0, _⟩ => rfl)
  rw [val_main_v5_apply, val_main_v2_apply, val_main_v4_apply, val_main_v3_apply]
  simp only [val_main_v1_apply, val_main_v0_apply, e1, e2, e3]
  rfl

end Cert.ReferenceIdeal.AtIndex

end
-- ==== Proof.LibTransposedMatmul.lean ====
/-
  A matrix product against a TRANSPOSED right operand, into a zero accumulator, read at a row and a column.

  For dimension numbers that contract the left operand's columns with the right operand's COLUMNS (no batch axis) —
  the product  A Bᵀ  of an `[M, K]` matrix and an `[N, K]` matrix —, entry `(r, c)` accumulated into zero is the sum over
  `k` of `lhs (r, k) * rhs (c, k)` on the extended reals: the accumulator contributes `0`, and the contraction index,
  a rank-one index, is re-indexed by its one coordinate. Stated for any extents and float formats, with the dimension
  numbers given by their six lists, so that any printed record with these lists unifies.
-/
import Idealize.ShloMosaic.PureOps.Ideal.Laws
import Idealize.ShloMosaic.Lib.ValueIdx

namespace Cert.Lib.TransposedMatmul

open Idealize.ShloMosaic Idealize.ShloMosaic.ValueIdx

set_option backward.isDefEq.respectTransparency.types false in
/-- The product of `[M, K]` by the transpose of `[N, K]` into the zero splat, at `(r, c)`: `∑ k, lhs (r, k) * rhs (c, k)`. -/
theorem matmul_zero_apply {M K N : ℕ} {φ₁ φ₂ : FTy}
    (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision) (lhs : FVec Ideal ⟨2, ![M, K]⟩ φ₁) (rhs : FVec Ideal ⟨2, ![N, K]⟩ φ₂)
    (r : Fin M) (c : Fin N) :
    FloatOps.matmul d prec lhs rhs (constant ⟨2, ![M, N]⟩ .f32 0x00000000#32) (ix2 r c)
      = ∑ k : Fin K, lhs (ix2 r k) * rhs (ix2 c k) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun k _ => ?_
  have hk := contrEquiv1_symm_val (⟨[1], [1], [0], [0], [], [], wf⟩ : DotDims ⟨2, ![M, K]⟩ ⟨2, ![N, K]⟩ ⟨2, ![M, N]⟩) K rfl rfl k
  have el : (⟨[1], [1], [0], [0], [], [], wf⟩ : DotDims ⟨2, ![M, K]⟩ ⟨2, ![N, K]⟩ ⟨2, ![M, N]⟩).lhsIdx (ix2 r c)
      ((contrEquiv1 (⟨[1], [1], [0], [0], [], [], wf⟩ : DotDims ⟨2, ![M, K]⟩ ⟨2, ![N, K]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [1], [0], [0], [], [], wf⟩ : DotDims ⟨2, ![M, K]⟩ ⟨2, ![N, K]⟩ ⟨2, ![M, N]⟩).rhsIdx (ix2 r c)
      ((contrEquiv1 (⟨[1], [1], [0], [0], [], [], wf⟩ : DotDims ⟨2, ![M, K]⟩ ⟨2, ![N, K]⟩ ⟨2, ![M, N]⟩) K rfl rfl).symm k) = ix2 c k :=
    funext fun a => Fin.ext (by
      match a with
      | ⟨0, h0⟩ =>
        unfold DotDims.rhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.rhsIdx_val_of_single _ rfl _ _).trans hk)
  rw [el, er]

end Cert.Lib.TransposedMatmul
-- ==== Proof.Payloads.lean ====
/-
  What the kernel body stores, read at an entry of the output tile.

  The body keeps a `[2048, 1024]` tile of the output.  It stores zero into it at the first point of a run; at every
  point it adds to the tile the product of the point's `[2048, 512]` block of the input with the transpose of the
  point's `[1024, 512]` block of the masked weight; at the last point of a run it adds the bias row to every row.
  At entry `(p, g)` of the tile the product is `Σ_kk x0(p, kk) · x1(g, kk)`, and the bias row reads `x2(0, g)`.
-/
import proofs.«139576_j60687887893041_2_alg».proof.Proof.Gen.KernelIdeal.Skeleton
import proofs.«139576_j60687887893041_2_alg».proof.Proof.LibTransposedMatmul
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx
open scoped BigOperators

/-- Entry `j = (p, g)` of the product of a `[2048, 512]` block with the transpose of a `[1024, 512]` block. -/
def blockProduct (x0 : Vec Ideal S2048x512 .bf16) (x1 : Vec Ideal S1024x512 .bf16) (j : S2048x1024.Idx) : EReal :=
  ∑ kk : Fin 512, x0 (ix2 (j 0) kk) * x1 (ix2 (j 1) kk)

/-- The tile's reset value is zero at every entry. -/
theorem pay1_apply (j : S2048x1024.Idx) : k0_pay1 (F := Ideal) j = 0 := by
  unfold k0_pay1
  exact Ideal.ofBits_zero_f32

/-- An accumulating store adds the block product to what the tile held. -/
theorem pay2_apply (acc : Vec Ideal S2048x1024 .f32) (x0 : Vec Ideal S2048x512 .bf16) (x1 : Vec Ideal S1024x512 .bf16)
    (j : S2048x1024.Idx) : k0_pay2 (F := Ideal) acc x0 x1 j = acc j + blockProduct x0 x1 j := by
  obtain ⟨p, g, rfl⟩ : ∃ (p : Fin 2048) (g : Fin 1024), j = ix2 p g := ⟨j 0, j 1, eq_ix2 j⟩
  unfold k0_pay2 blockProduct
  rw [addf_apply, shapeCast_self, shapeCast_self, shapeCast_self]
  exact congrArg (acc (ix2 p g) + ·)
    (Cert.Lib.TransposedMatmul.matmul_zero_apply dot_S2048x512_S1024x512_S2048x1024_1_1_0_0_n_n rfl rfl rfl rfl rfl rfl none x0 x1 p g)

/-- The closing store adds the bias row's entry of the column to what the tile held. -/
theorem pay3_apply (acc : Vec Ideal S2048x1024 .f32) (x2 : Vec Ideal S1x1024 .f32) (j : S2048x1024.Idx) :
    k0_pay3 (F := Ideal) acc x2 j = acc j + x2 (ix2 (0 : Fin 1) (j 1)) := by
  obtain ⟨p, g, rfl⟩ : ∃ (p : Fin 2048) (g : Fin 1024), j = ix2 p g := ⟨j 0, j 1, eq_ix2 j⟩
  unfold k0_pay3
  rw [addf_apply, shapeCast_self, shapeCast_self]
  exact congrArg (acc (ix2 p g) + ·) (broadcastTo_1b_ab_apply x2 broadcasts_S1x1024_S2048x1024 p g)

end Cert.KernelIdeal.Body

end
-- ==== Proof.Blocks.lean ====
/-
  The blocks the kernel body is given, read off the argument arrays.

  Before the grid runs, the host multiplies the weight by the mask entry by entry and changes the float format of that
  product and of the input (a change of format is the identity on the extended reals), and lays the bias along a unit
  row.  The grid has 4 · 4 · 8 points; point `t` is (row tile `t / 32`, column tile `t / 8 mod 4`, contraction block
  `t mod 8`).  At point `t` the body is given: rows `2048 (t / 32) + p`, columns `512 (t mod 8) + kk` of the input;
  rows `1024 (t / 8 mod 4) + g`, columns `512 (t mod 8) + kk` of the masked weight; and columns
  `1024 (t / 8 mod 4) + g` of the bias row.
-/
import proofs.«139576_j60687887893041_2_alg».proof.Proof.Gen.KernelIdeal.Frame
import Idealize.ShloMosaic.Lib.ValueLayout
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The three input windows' block indices at every grid point, decided over the grid. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4 :=
  (by decide +kernel : ∀ t : Fin grid0.N, _)

/-- The region finds the input itself in its first window's array: the change of float format is the identity. -/
theorem input_array (c : Dev nD) :
    (V m c main_v2 : S8192x4096.Idx → EReal) = m ((c : Thread nD τ).loc main_arg0) := by
  dsimp only [V, hostOps0]
  after_results
  rfl

/-- The region finds the weight times the mask, entry by entry, in its second window's array. -/
theorem weight_array (c : Dev nD) :
    (V m c main_v1 : S4096x4096.Idx → EReal)
      = mulf (F := Ideal) (s := S4096x4096) (φ := .f32) (m ((c : Thread nD τ).loc main_arg1)) (m ((c : Thread nD τ).loc main_arg3)) := by
  dsimp only [V, hostOps0]
  after_results
  rfl

/-- The region finds the bias laid along a unit row in its third window's array. -/
theorem bias_array (c : Dev nD) :
    (V m c main_v3 : S1x4096.Idx → EReal)
      = shapeCast S1x4096 (m ((c : Thread nD τ).loc main_arg2)) shapeCasts_S4096_S1x4096 := by
  dsimp only [V, hostOps0]
  after_results
  rfl

/-- Entry `(p, kk)` of the input's block at point `t` is the input at row `2048 (t / 32) + p`, column `512 (t mod 8) + kk`. -/
theorem input_block_apply (c : Dev nD) (t : Fin cfg0.N) (p : Fin 2048) (kk : Fin 512) (r : Fin 8192) (k : Fin 4096)
    (hr : r.val = t.val / 32 * 2048 + p.val) (hk : k.val = t.val % 8 * 512 + kk.val) :
    (iblk m c 0 t : Vec Ideal S2048x512 .bf16) (ix2 p kk) = m ((c : Thread nD τ).loc main_arg0) (ix2 r k) := by
  obtain ⟨h0, h1, -⟩ := idx_facts t
  unfold iblk
  rw [View.read_apply]
  show V m c main_v2 _ = _
  rw [input_array]
  refine congrArg _ (funext fun a => Fin.ext ?_)
  match a with
  | ⟨0, _⟩ => show win0_0.index t 0 * 2048 + 1 * p.val = r.val; rw [h0, hr]; omega
  | ⟨1, _⟩ => show win0_0.index t 1 * 512 + 1 * kk.val = k.val; rw [h1, hk]; omega

/-- Entry `(g, kk)` of the masked weight's block at point `t` is the entrywise product of weight and mask at row
    `1024 (t / 8 mod 4) + g`, column `512 (t mod 8) + kk`. -/
theorem weight_block_apply (c : Dev nD) (t : Fin cfg0.N) (g : Fin 1024) (kk : Fin 512) (cc : Fin 4096) (k : Fin 4096)
    (hc : cc.val = t.val / 8 % 4 * 1024 + g.val) (hk : k.val = t.val % 8 * 512 + kk.val) :
    (iblk m c 1 t : Vec Ideal S1024x512 .bf16) (ix2 g kk)
      = mulf (F := Ideal) (s := S4096x4096) (φ := .f32) (m ((c : Thread nD τ).loc main_arg1)) (m ((c : Thread nD τ).loc main_arg3)) (ix2 cc k) := by
  obtain ⟨-, -, h0, h1, -⟩ := idx_facts t
  unfold iblk
  rw [View.read_apply]
  show V m c main_v1 _ = _
  rw [weight_array]
  refine congrArg _ (funext fun a => Fin.ext ?_)
  match a with
  | ⟨0, _⟩ => show win0_1.index t 0 * 1024 + 1 * g.val = cc.val; rw [h0, hc]; omega
  | ⟨1, _⟩ => show win0_1.index t 1 * 512 + 1 * kk.val = k.val; rw [h1, hk]; omega

/-- Entry `(0, g)` of the bias row's block at point `t` is the bias at `1024 (t / 8 mod 4) + g`. -/
theorem bias_block_apply (c : Dev nD) (t : Fin cfg0.N) (g : Fin 1024) (cc : Fin 4096)
    (hc : cc.val = t.val / 8 % 4 * 1024 + g.val) :
    (iblk m c 2 t : Vec Ideal S1x1024 .f32) (ix2 (0 : Fin 1) g) = m ((c : Thread nD τ).loc main_arg2) (ix1 cc) := by
  obtain ⟨-, -, -, -, h0, h1⟩ := idx_facts t
  unfold iblk
  rw [View.read_apply]
  show V m c main_v3 _ = _
  rw [bias_array, ← shapeCast_a_1a_apply (m ((c : Thread nD τ).loc main_arg2)) shapeCasts_S4096_S1x4096 (0 : Fin 1) cc]
  refine congrArg _ (funext fun a => Fin.ext ?_)
  match a with
  | ⟨0, _⟩ => show win0_2.index t 0 * 1 + 1 * 0 = 0; rw [h0]
  | ⟨1, _⟩ => show win0_2.index t 1 * 1024 + 1 * g.val = cc.val; rw [h1, hc]; omega

end Cert.KernelIdeal.Blocks

end
-- ==== Proof.Fold.lean ====
/-
  What the output array ends holding, entry by entry: the layer.

  The grid visits each `[2048, 1024]` tile of the output on eight consecutive points, one per block of 512
  contraction indices.  The tile is reset to zero plus the first block's product, the next six points each add their
  block's product, and the eighth adds its block's product and then the bias row.  At entry `(p, g)` of tile
  `(r / 2048, c / 1024)`, with `p = r mod 2048` and `g = c mod 1024`, point number `s` of the run contributes
  `Σ_kk x(r, 512 s + kk) · (w(c, 512 s + kk) · mask(c, 512 s + kk))`: block `s` of the contraction of input row `r`
  against masked-weight row `c`.  The eight block sums make the whole contraction, and the bias row reads `b(c)`.
-/
import proofs.«139576_j60687887893041_2_alg».proof.Proof.Gen.KernelIdeal.Value
import proofs.«139576_j60687887893041_2_alg».proof.Proof.Payloads
import proofs.«139576_j60687887893041_2_alg».proof.Proof.Blocks
import proofs.«139576_j60687887893041_2_alg».proof.Proof.MaskedLinear

noncomputable section

namespace Cert.KernelIdeal.Fold

open Cert.KernelIdeal Cert.KernelIdeal.Gen Cert.KernelIdeal.Value Cert.KernelIdeal.Body Cert.KernelIdeal.Blocks
open Cert.MaskedLinear
open Idealize.ShloMosaic Idealize.ShloMosaic.TcCoe Idealize.SL.Sem Idealize.ShloMosaic.ValueIdx
open scoped BigOperators

variable (m : (ℓ : Loc nD τ sig) → Buf (Elt Ideal) ℓ)

/-- What grid point `n` adds to the tile: the product of its two blocks (zero past the grid, which is never read). -/
def addend (c : Dev nD) (n : ℕ) (j : S2048x1024.Idx) : EReal :=
  if h : n < cfg0.N then blockProduct (iblk m c 0 ⟨n, h⟩) (iblk m c 1 ⟨n, h⟩) j else 0

/-- The first point of a run leaves zero plus its addend. -/
theorem reset_apply (c : Dev nD) (b : ℕ) (h : b < cfg0.N) (j : S2048x1024.Idx) :
    reset3 m c b h j = 0 + addend m c b j := by
  unfold reset3 addend
  rw [dif_pos h]
  refine (pay2_apply (k0_pay1 (F := Ideal)) (iblk m c 0 ⟨b, h⟩) (iblk m c 1 ⟨b, h⟩) j).trans ?_
  rw [pay1_apply]

/-- Each of the next six points adds its addend to what the point before left. -/
theorem step_mid_apply (c : Dev nD) (q n : ℕ) (h : n < cfg0.N) (acc : Vec Ideal S2048x1024 .f32) (j : S2048x1024.Idx)
    (h1 : 8 * q < n) (h2 : n ≤ 8 * q + 6) : step3 m c n h acc j = acc j + addend m c n j := by
  unfold step3 addend
  rw [if_pos (by omega), dif_pos h]
  exact pay2_apply acc (iblk m c 0 ⟨n, h⟩) (iblk m c 1 ⟨n, h⟩) j

/-- The last point of a run adds its addend and then the bias row's entry of the column. -/
theorem step_last_apply (c : Dev nD) (n : ℕ) (h : n < cfg0.N) (acc : Vec Ideal S2048x1024 .f32) (j : S2048x1024.Idx)
    (h7 : n % 8 = 7) :
    step3 m c n h acc j
      = (acc j + addend m c n j) + (iblk m c 2 ⟨n, h⟩ : Vec Ideal S1x1024 .f32) (ix2 (0 : Fin 1) (j 1)) := by
  unfold step3 addend
  rw [if_neg (by omega), if_pos (by omega), dif_pos h]
  refine (pay3_apply (k0_pay2 acc (iblk m c 0 ⟨n, h⟩) (iblk m c 1 ⟨n, h⟩)) (iblk m c 2 ⟨n, h⟩) j).trans ?_
  rw [pay2_apply acc (iblk m c 0 ⟨n, h⟩) (iblk m c 1 ⟨n, h⟩) j]

/-- The run of eight points starting at `8 q` leaves, at every entry of the tile, the first seven addends added into
    zero, then the eighth, then the bias row's entry. -/
theorem fold_apply (c : Dev nD) (q : ℕ) (hlt : 8 * q + 7 < cfg0.N) (j : S2048x1024.Idx) :
    Pipeline.accAt (reset3 m c) (step3 m c) (8 * q) 7 hlt j
      = ((0 + ∑ s ∈ Finset.range 7, addend m c (8 * q + s) j) + addend m c (8 * q + 7) j)
        + (iblk m c 2 ⟨8 * q + 7, hlt⟩ : Vec Ideal S1x1024 .f32) (ix2 (0 : Fin 1) (j 1)) := by
  have hfold := Pipeline.accAt_add_apply (ι := S2048x1024.Idx) (β := EReal) (reset3 m c) (step3 m c)
    (fun _ => 0) (addend m c) (8 * q) 6
    (fun h j => reset_apply m c (8 * q) h j)
    (fun n h acc j h1 h2 => step_mid_apply m c q n h acc j h1 h2)
    6 le_rfl (Nat.lt_of_succ_lt hlt) j
  refine (congrFun (Pipeline.accAt_succ (reset3 m c) (step3 m c) (8 * q) 6 hlt) j).trans ?_
  refine (step_last_apply m c (8 * q + 7) hlt _ j (by omega)).trans ?_
  rw [hfold]

/-- Point number `s` of the run that fills the tile holding `(r, c)` adds, at the entry's place in the tile, block
    `s` of the contraction of input row `r` against masked-weight row `c`. -/
theorem addend_eq (c : Dev nD) (r : Fin 8192) (cc : Fin 4096) (p : Fin 2048) (g : Fin 1024) (q : ℕ)
    (hp : p.val = r.val % 2048) (hg : g.val = cc.val % 1024) (hq : q = 4 * (r.val / 2048) + cc.val / 1024)
    (s : ℕ) (hs : s < 8) :
    addend m c (8 * q + s) (ix2 p g)
      = blockSum (term (m ((c : Thread nD τ).loc main_arg0)) (m ((c : Thread nD τ).loc main_arg1))
          (m ((c : Thread nD τ).loc main_arg3)) r cc) s := by
  have hr := r.isLt
  have hcc := cc.isLt
  have hN : cfg0.N = 128 := N_0
  have hn : 8 * q + s < cfg0.N := by rw [hN]; omega
  unfold addend
  rw [dif_pos hn, blockSum_of_lt _ s hs]
  unfold blockProduct
  refine Finset.sum_congr rfl fun kk _ => ?_
  have hkk := kk.isLt
  have ex := input_block_apply m c ⟨8 * q + s, hn⟩ p kk r (kIdx ⟨s, hs⟩ kk)
    (by show r.val = (8 * q + s) / 32 * 2048 + p.val; omega)
    (by show s * 512 + kk.val = (8 * q + s) % 8 * 512 + kk.val; omega)
  have ew := weight_block_apply m c ⟨8 * q + s, hn⟩ g kk cc (kIdx ⟨s, hs⟩ kk)
    (by show cc.val = (8 * q + s) / 8 % 4 * 1024 + g.val; omega)
    (by show s * 512 + kk.val = (8 * q + s) % 8 * 512 + kk.val; omega)
  exact congrArg₂ (fun a b : EReal => a * b) ex ew

/-- Entry `(r, c)` of the array the run leaves is the layer's. -/
theorem G3_apply (c : Dev nD) (r : Fin 8192) (cc : Fin 4096) :
    G3 (F := Ideal) m c (ix2 r cc)
      = out (m ((c : Thread nD τ).loc main_arg0)) (m ((c : Thread nD τ).loc main_arg1))
          (m ((c : Thread nD τ).loc main_arg2)) (m ((c : Thread nD τ).loc main_arg3)) (ix2 r cc) := by
  have hr := r.isLt
  have hcc := cc.isLt
  have hN : cfg0.N = 128 := N_0
  obtain ⟨p, hp⟩ : ∃ p : Fin 2048, p.val = r.val % 2048 := ⟨⟨r.val % 2048, Nat.mod_lt _ (by decide)⟩, rfl⟩
  obtain ⟨g, hg⟩ : ∃ g : Fin 1024, g.val = cc.val % 1024 := ⟨⟨cc.val % 1024, Nat.mod_lt _ (by decide)⟩, rfl⟩
  have hloc : loc3Of (ix2 r cc) = ix2 p g := funext fun a => Fin.ext (by
    match a with
    | ⟨0, _⟩ => exact hp.symm
    | ⟨1, _⟩ => exact hg.symm)
  unfold G3
  generalize hq : run3Of (ix2 r cc) = q
  have hq' : q = 4 * (r.val / 2048) + cc.val / 1024 := by
    rw [← hq]
    show 4 * (r.val / 2048 - 0) + 1 * (cc.val / 1024 - 0) = _
    omega
  have hlt : 8 * q + 7 < cfg0.N := by rw [hN]; omega
  rw [dif_pos hlt, hloc, fold_apply m c q hlt (ix2 p g)]
  show _ = (∑ k : Fin 4096, term (m ((c : Thread nD τ).loc main_arg0)) (m ((c : Thread nD τ).loc main_arg1))
      (m ((c : Thread nD τ).loc main_arg3)) r cc k) + m ((c : Thread nD τ).loc main_arg2) (ix1 cc)
  rw [← blocked (term (m ((c : Thread nD τ).loc main_arg0)) (m ((c : Thread nD τ).loc main_arg1))
      (m ((c : Thread nD τ).loc main_arg3)) r cc)]
  rw [Finset.sum_congr rfl (fun s hs => addend_eq m c r cc p g q hp hg hq' s (by have := Finset.mem_range.mp hs; omega)),
    addend_eq m c r cc p g q hp hg hq' 7 (by omega)]
  exact congrArg (_ + ·) (bias_block_apply m c ⟨8 * q + 7, hlt⟩ g cc
    (by show cc.val = (8 * q + 7) / 8 % 4 * 1024 + g.val; omega))

/-- The array the run leaves is the layer of the argument arrays. -/
theorem G3_eq (c : Dev nD) :
    (G3 (F := Ideal) m c : S8192x4096.Idx → EReal)
      = out (m ((c : Thread nD τ).loc main_arg0)) (m ((c : Thread nD τ).loc main_arg1))
          (m ((c : Thread nD τ).loc main_arg2)) (m ((c : Thread nD τ).loc main_arg3)) := by
  funext i
  obtain ⟨r, cc, rfl⟩ : ∃ (r : Fin 8192) (cc : Fin 4096), i = ix2 r cc := ⟨i 0, i 1, eq_ix2 i⟩
  exact G3_apply m c r cc

end Cert.KernelIdeal.Fold

end
-- ==== Proof.lean ====
/- A masked linear layer, `out = x · (w ∘ mask)ᵀ + b`, computed tile by tile against the same layer computed whole.

   The kernel's program first multiplies the weight by the mask entry by entry, changes the float format of that
   product and of the input, and lays the bias along a unit row; then a grid of 4 · 4 · 8 points fills each
   `[2048, 1024]` tile of the output on eight consecutive points, one per block of 512 contraction indices: the tile is
   reset to zero, each point adds the product of its block of the input with the transpose of its block of the masked
   weight, and the last point adds the bias row.  The reference multiplies the weight by the mask, transposes, contracts
   all 4096 indices at once and adds the bias broadcast over the rows.

   On the extended reals a change of float format is the identity, so both programs compute, at `(r, c)`,
   `Σ_k x(r, k) · (w(c, k) · mask(c, k)) + b(c)`  (Proof/MaskedLinear.lean): the reference read at an index
   (Proof/Reference.lean), and the kernel's tile after its run of eight points (Proof/Payloads.lean: what each store
   holds at an entry; Proof/Blocks.lean: the blocks as slices of the argument arrays; Proof/Fold.lean: the run's fold,
   entry by entry).  The two differ only in how the sum over `k` is grouped — eight consecutive blocks added into zero
   against one sum — which is associativity and commutativity of addition; no entry need be finite, so the
   precondition is never opened.  Nothing is rewritten by the idealization, so it is preserved trivially. -/
import proofs.«139576_j60687887893041_2_alg».proof.Defs
import proofs.«139576_j60687887893041_2_alg».proof.Proof.Gen.Kernel.Frame
import proofs.«139576_j60687887893041_2_alg».proof.Proof.Gen.KernelIdeal.Value
import proofs.«139576_j60687887893041_2_alg».proof.Proof.Gen.Pre_finite_inputs
import proofs.«139576_j60687887893041_2_alg».proof.Proof.Gen.ReferenceIdeal.Run
import proofs.«139576_j60687887893041_2_alg».proof.Proof.Reference
import proofs.«139576_j60687887893041_2_alg».proof.Proof.Fold
import Idealize.ShloMosaic.Adequacy
import Idealize.ShloMosaic.Init

noncomputable section

namespace Cert.Proof

open Idealize.ShloMosaic Idealize.SL.Sem

/-- The idealized kernel terminates without a fault and leaves its arguments as they were: its value run, with the
    result forgotten. -/
theorem frame_KernelIdeal : frame_KernelIdeal := fun m ρ _ =>
  (θ_run Cert.KernelIdeal.defs _ _).mono (fun _ h c => (h c).2) (Cert.KernelIdeal.Value.run (F := Ideal) m ρ)

/-- The idealized reference terminates without a fault and leaves its arguments as they were: its run, with the
    result forgotten. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the four arguments, the kernel's output array and the reference's result are the same
    layer of those arguments, entry by entry. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  rw [Cert.ReferenceIdeal.Read.val_main_v5_eq, Cert.ReferenceIdeal.AtIndex.result_eq]
  exact (Cert.KernelIdeal.Fold.G3_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
